-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg8 : FVec F S2x128x128 .f32) (main_arg9 : FVec F S2x128 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg5 : FVec F S128 .f32) (main_arg6 : FVec F S2x128x128 .f32) (main_arg7 : FVec F S2x128 .f32) (main_arg8 : FVec F S2x128x128 .f32) (main_arg9 : FVec F S2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S2x128x128 .f32) (main_arg7 : FVec F S2x128 .f32) (main_arg8 : FVec F S2x128x128 .f32) (main_arg9 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x128x128 : Shape := ⟨3, ![1, 128, 128]⟩
abbrev S1x50000x128 : Shape := ⟨3, ![1, 50000, 128]⟩

abbrev nBuf : Space → Nat
  | .hbm => 79
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S2x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S1x128, .f32⟩
  | .hbm, ⟨29, _⟩ => ⟨S50000x128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128x128, .f32⟩
  | .hbm, ⟨35, _⟩ => ⟨S128x128, .f32⟩
  | .hbm, ⟨36, _⟩ => ⟨S1x128, .f32⟩
  | .hbm, ⟨37, _⟩ => ⟨S128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S1x50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_4 : Ref sig .tc := ⟨.hbm, 62, rfl⟩
abbrev main_v46 : Ref sig .tc := ⟨.hbm, 63, rfl⟩
abbrev main_v47 : Ref sig .tc := ⟨.hbm, 64, rfl⟩
abbrev main_c_5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  bcast_S50000x128_S1x50000x128_1_2 : S50000x128.BroadcastsInDim S1x50000x128 (![1, 2] : Fin 2 → Fin S1x50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x128x128 : Shape := ⟨3, ![1, 128, 128]⟩
abbrev S1x50000x128 : Shape := ⟨3, ![1, 50000, 128]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S2x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | .hbm, ⟨114, _⟩ => ⟨S1x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_1 : Ref sig .tc := ⟨.hbm, 50, rfl⟩
abbrev main_v33 : Ref sig .tc := ⟨.hbm, 51, rfl⟩
abbrev main_v34 : Ref sig .tc := ⟨.hbm, 52, rfl⟩
abbrev main_c_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call2_cst : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call3_cst : Ref sig .tc := ⟨.hbm, 75, rfl⟩
abbrev main_call3_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_4 : Ref sig .tc := ⟨.hbm, 86, rfl⟩
abbrev main_v62 : Ref sig .tc := ⟨.hbm, 87, rfl⟩
abbrev main_v63 : Ref sig .tc := ⟨.hbm, 88, rfl⟩
abbrev main_c_5 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_6 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call4_cst : Ref sig .tc := ⟨.hbm, 104, rfl⟩
abbrev main_call4_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call5_cst : Ref sig .tc := ⟨.hbm, 111, rfl⟩
abbrev main_call5_v0 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S50000x128_S1x50000x128_1_2 : S50000x128.BroadcastsInDim S1x50000x128 (![1, 2] : Fin 2 → Fin S1x50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with the whole final memory named.

  @main is seven segments: four stretches of host operations and, between them, three launches of the dense layer
  over ten bands of 5000 rows. The buffer contents at each boundary are a fold from the launch memory: a host
  stretch applies its operations, a launch leaves each of its arrays at what the bands wrote back. Every weakly fair
  execution terminates, and every unscoped buffer of every core ends at the last boundary's contents; in particular
  the result buffer does, which is what a value proof reads.
-/
import proofs.«142028_j23605140259119_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every unscoped buffer of every core ends at the contents
    the fold through the seven segments gives it. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at the result buffer and at the ten arguments. -/
theorem run_result : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)
    (run_mem m ρ)

end Cert.KernelIdeal.Whole

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.GinLayer.lean ====
/-
  One layer of a graph-isomorphism network on the extended reals, index by index.

  For node features `x : [n, 128]`, aggregated neighbour features `a : [n, 128]`, two weight matrices and two bias
  vectors the layer is

      hidden (r, k) = max (∑ l, (x (r, l) + a (r, l)) · w1 (l, k) + b1 k) 0
      layer  (r, j) = max (∑ k, hidden (r, k) · w2 (k, j) + b2 j) 0

  Entry (r, j) reads row r of `x` and of `a` and nothing else of them: the layer of a band of rows is the band of the
  layer. The sums are finite sums in a commutative monoid; nothing here needs a finite value.
-/
import proofs.«142028_j23605140259119_1_alg».proof.Proof.LibDense

noncomputable section

namespace Cert.GinLayer

open Idealize.ShloMosaic Idealize.ShloMosaic.ValueIdx Cert.LibDense

/-- The value of the f32 word of zero, left as the word: it is the same word wherever a rectifier is applied. -/
abbrev zero : EReal := Ideal.ofBits .f32 0x00000000#32

/-- The first half of the layer: the rectified affine image of `x + a`. -/
def hidden {n : ℕ} (x a : (⟨2, ![n, 128]⟩ : Shape).Idx → EReal) (w1 : (⟨2, ![128, 128]⟩ : Shape).Idx → EReal)
    (b1 : (⟨1, ![128]⟩ : Shape).Idx → EReal) : (⟨2, ![n, 128]⟩ : Shape).Idx → EReal :=
  fun p => max (prod (fun q => x q + a q) w1 p + b1 (ix1 (p 1))) zero

/-- The layer: the rectified affine image of the hidden features. -/
def layer {n : ℕ} (x a : (⟨2, ![n, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![n, 128]⟩ : Shape).Idx → EReal :=
  fun i => max (prod (hidden x a w1 b1) w2 i + b2 (ix1 (i 1))) zero

/-- The hidden features at (r, k), written out. -/
theorem hidden_apply {n : ℕ} (x a : (⟨2, ![n, 128]⟩ : Shape).Idx → EReal) (w1 : (⟨2, ![128, 128]⟩ : Shape).Idx → EReal)
    (b1 : (⟨1, ![128]⟩ : Shape).Idx → EReal) (r : Fin n) (k : Fin 128) :
    hidden x a w1 b1 (ix2 r k) = max ((∑ l : Fin 128, (x (ix2 r l) + a (ix2 r l)) * w1 (ix2 l k)) + b1 (ix1 k)) zero := rfl

/-- The layer at (r, j), written out. -/
theorem layer_apply {n : ℕ} (x a : (⟨2, ![n, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin n) (j : Fin 128) :
    layer x a w1 b1 w2 b2 (ix2 r j)
      = max ((∑ k : Fin 128, hidden x a w1 b1 (ix2 r k) * w2 (ix2 k j)) + b2 (ix1 j)) zero := rfl

/-- Row r of the hidden features reads row r of `x` and of `a` only. -/
theorem hidden_rows {n n' : ℕ} (x a : (⟨2, ![n, 128]⟩ : Shape).Idx → EReal) (x' a' : (⟨2, ![n', 128]⟩ : Shape).Idx → EReal)
    (w1 : (⟨2, ![128, 128]⟩ : Shape).Idx → EReal) (b1 : (⟨1, ![128]⟩ : Shape).Idx → EReal) (r : Fin n) (r' : Fin n') (k : Fin 128)
    (hx : ∀ l : Fin 128, x (ix2 r l) = x' (ix2 r' l)) (ha : ∀ l : Fin 128, a (ix2 r l) = a' (ix2 r' l)) :
    hidden x a w1 b1 (ix2 r k) = hidden x' a' w1 b1 (ix2 r' k) := by
  rw [hidden_apply, hidden_apply, Finset.sum_congr rfl (fun l _ => by rw [hx l, ha l])]

/-- Row r of the layer reads row r of `x` and of `a` only: two pairs of operands, of any heights, that agree on a
    row give the same layer entries along it. -/
theorem layer_rows {n n' : ℕ} (x a : (⟨2, ![n, 128]⟩ : Shape).Idx → EReal) (x' a' : (⟨2, ![n', 128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) (r : Fin n) (r' : Fin n') (j : Fin 128)
    (hx : ∀ l : Fin 128, x (ix2 r l) = x' (ix2 r' l)) (ha : ∀ l : Fin 128, a (ix2 r l) = a' (ix2 r' l)) :
    layer x a w1 b1 w2 b2 (ix2 r j) = layer x' a' w1 b1 w2 b2 (ix2 r' j) := by
  rw [layer_apply, layer_apply,
    Finset.sum_congr rfl (fun k _ => by rw [hidden_rows x a x' a' w1 b1 r r' k hx ha])]

end Cert.GinLayer

end
-- ==== Proof.KernelDense.lean ====
/-
  What one launch of the dense-layer kernel computes from its blocks.

  The body loads a band of 5000 rows of `x` and of the neighbour sums `a`, the two weight matrices whole and the two
  biases as rows [1, 128], and stores

      max (max ((x + a) · w1 + row b1) 0 · w2 + row b2) 0 .

  Each product goes through the matrix unit in a narrower format into a zero accumulator; on the extended reals a
  change of format is the identity and the accumulator adds nothing, so the product's entry is the row-by-column
  sum, and the stored block is `GinLayer.layer` of the loaded blocks, index by index. The three launches' bodies
  differ only by shape casts from a shape to itself.
-/
import proofs.«142028_j23605140259119_1_alg».proof.Proof.Gen.KernelIdeal.Skeleton
import proofs.«142028_j23605140259119_1_alg».proof.Proof.GinLayer
import Idealize.ShloMosaic.Lib.Pipeline.Value
import Idealize.ShloMosaic.Lib.ValueIdx

noncomputable section

namespace Cert.KernelIdeal.Dense

open Cert.KernelIdeal Cert.KernelIdeal.Gen
open Idealize.ShloMosaic Idealize.ShloMosaic.ValueIdx Cert.LibDense Cert.GinLayer

/-- The body's arithmetic with the identity casts removed. -/
def core (x a : Vec Ideal S5000x128 .f32) (w1 : Vec Ideal S128x128 .f32) (b1 : Vec Ideal S1x128 .f32)
    (w2 : Vec Ideal S128x128 .f32) (b2 : Vec Ideal S1x128 .f32) : FVec Ideal S5000x128 .f32 :=
  maximumf
    (addf
      (matmul dot_S5000x128_S128x128_S5000x128_1_0_0_1_n_n none
        (truncf .bf16
          (maximumf
            (addf
              (matmul dot_S5000x128_S128x128_S5000x128_1_0_0_1_n_n none (truncf .bf16 (addf x a) bitsLt_bf16_f32)
                (truncf .bf16 w1 bitsLt_bf16_f32) (constant (F := Ideal) S5000x128 .f32 0x00000000#32))
              (broadcastTo S5000x128 b1 broadcasts_S1x128_S5000x128))
            (broadcast S5000x128 (Scalar.ofBits (F := Ideal) .f32 0x00000000#32)))
          bitsLt_bf16_f32)
        (truncf .bf16 w2 bitsLt_bf16_f32) (constant (F := Ideal) S5000x128 .f32 0x00000000#32))
      (broadcastTo S5000x128 b2 broadcasts_S1x128_S5000x128))
    (broadcast S5000x128 (Scalar.ofBits (F := Ideal) .f32 0x00000000#32))

theorem pay0_core (x a : Vec Ideal S5000x128 .f32) (w1 : Vec Ideal S128x128 .f32) (b1 : Vec Ideal S1x128 .f32)
    (w2 : Vec Ideal S128x128 .f32) (b2 : Vec Ideal S1x128 .f32) : k0_pay1 (F := Ideal) x a w1 b1 w2 b2 = core x a w1 b1 w2 b2 := by
  unfold k0_pay1 core
  simp only [shapeCast_self]

theorem pay1_core (x a : Vec Ideal S5000x128 .f32) (w1 : Vec Ideal S128x128 .f32) (b1 : Vec Ideal S1x128 .f32)
    (w2 : Vec Ideal S128x128 .f32) (b2 : Vec Ideal S1x128 .f32) : k1_pay1 (F := Ideal) x a w1 b1 w2 b2 = core x a w1 b1 w2 b2 := by
  unfold k1_pay1 core
  simp only [shapeCast_self]

theorem pay2_core (x a : Vec Ideal S5000x128 .f32) (w1 : Vec Ideal S128x128 .f32) (b1 : Vec Ideal S1x128 .f32)
    (w2 : Vec Ideal S128x128 .f32) (b2 : Vec Ideal S1x128 .f32) : k2_pay1 (F := Ideal) x a w1 b1 w2 b2 = core x a w1 b1 w2 b2 := by
  unfold k2_pay1 core
  simp only [shapeCast_self]

/-- A row [1, 128] as a vector [128]. -/
def rowVec (b : Vec Ideal S1x128 .f32) : (⟨1, ![128]⟩ : Shape).Idx → EReal := fun q => b (ix2 (⟨0, Nat.one_pos⟩ : Fin 1) (q 0))

/-- A row [1, 128] broadcast down the band, at (r, j), is its entry j. -/
theorem row_apply (b : Vec Ideal S1x128 .f32) (r : Fin 5000) (j : Fin 128) :
    broadcastTo S5000x128 b broadcasts_S1x128_S5000x128 (ix2 r j) = rowVec b (ix1 j) := by
  refine broadcastTo_apply b broadcasts_S1x128_S5000x128 (ix2 r j) (ix2 (⟨0, Nat.one_pos⟩ : Fin 1) j) (fun a => ?_)
  match a with
  | ⟨0, _⟩ => exact (if_pos rfl).symm
  | ⟨1, _⟩ => show j.val = if (128 : Nat) = 1 then 0 else j.val; rw [if_neg (by decide)]

/-- The matrix unit's product into the zero accumulator, at an entry, is the row-by-column sum. -/
theorem mm_apply {φ₁ φ₂ : FTy} (l : FVec Ideal S5000x128 φ₁) (w : FVec Ideal S128x128 φ₂) (i : S5000x128.Idx) :
    matmul dot_S5000x128_S128x128_S5000x128_1_0_0_1_n_n none l w (constant (F := Ideal) S5000x128 .f32 0x00000000#32) i
      = prod (n := 5000) (K := 128) (d := 128) l w i :=
  matmul_plain (M := 5000) (K := 128) (N := 128) l w i

/-- The body's block is the layer of the loaded blocks. -/
theorem core_apply (x a : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    core x a w1 b1 w2 b2 (ix2 r j) = layer (n := 5000) x a w1 (rowVec b1) w2 (rowVec b2) (ix2 r j) := by
  have hh : ∀ k : Fin 128,
      (truncf .bf16
          (maximumf
            (addf
              (matmul dot_S5000x128_S128x128_S5000x128_1_0_0_1_n_n none (truncf .bf16 (addf x a) bitsLt_bf16_f32)
                (truncf .bf16 w1 bitsLt_bf16_f32) (constant (F := Ideal) S5000x128 .f32 0x00000000#32))
              (broadcastTo S5000x128 b1 broadcasts_S1x128_S5000x128))
            (broadcast S5000x128 (Scalar.ofBits (F := Ideal) .f32 0x00000000#32)))
          bitsLt_bf16_f32 : FVec Ideal S5000x128 .bf16) (ix2 r k) = hidden (n := 5000) x a w1 (rowVec b1) (ix2 r k) := fun k => by
    rw [hidden_apply, truncf_apply, maximumf_apply, addf_apply, broadcast_apply, row_apply, mm_apply]
    rfl
  rw [layer_apply]
  unfold core
  rw [maximumf_apply, addf_apply, broadcast_apply, row_apply, mm_apply]
  refine congrArg (fun s => max (s + rowVec b2 (ix1 j)) zero) ?_
  exact Finset.sum_congr rfl fun k _ => congrArg (· * w2 (ix2 k j)) (hh k)

end Cert.KernelIdeal.Dense

end
-- ==== Proof.KernelBands.lean ====
/-
  What a launch of the dense-layer kernel leaves in its output array.

  The grid has ten points; point t loads rows [5000·t, 5000·t + 5000) of the features and of the neighbour sums, the
  weights and the bias rows whole, and writes back the same band of the output. Since an entry of the layer reads
  only its own row of the features and of the neighbour sums, the band the body computes from the loaded blocks is
  the band of the layer of the WHOLE arrays; the ten bands are disjoint in rows and cover all 50000, so after the
  launch the output array is the layer of the arrays as the launch found them.
-/
import proofs.«142028_j23605140259119_1_alg».proof.Proof.Gen.KernelIdeal.Frame
import proofs.«142028_j23605140259119_1_alg».proof.Proof.KernelDense
import Idealize.ShloMosaic.Lib.Pipeline.Value

set_option maxRecDepth 16384

noncomputable section

namespace Cert.KernelIdeal.Bands

open Cert.KernelIdeal Cert.KernelIdeal.Gen Cert.KernelIdeal.Dense
open Idealize.ShloMosaic Idealize.ShloMosaic.TcCoe Idealize.ShloMosaic.ValueIdx Cert.GinLayer
open Idealize.SL.Sem
open Idealize.ShloMosaic.Pipeline (Dat Cfg Window)

theorem hz : (![0, 0] : Fin 2 → Nat) = fun _ => 0 := funext fun a => by fin_cases a <;> rfl

/-- The body's block at a local index is the layer of the whole arrays at the matching array index, once the loaded
    bands agree with the arrays along that row and the weight and bias blocks are the arrays themselves. -/
theorem band_eq (x a : Vec Ideal S5000x128 .f32) (w1 : Vec Ideal S128x128 .f32) (b1 : Vec Ideal S1x128 .f32)
    (w2 : Vec Ideal S128x128 .f32) (b2 : Vec Ideal S1x128 .f32)
    (X A : S50000x128.Idx → EReal) (W1 : S128x128.Idx → EReal) (B1 : S1x128.Idx → EReal) (W2 : S128x128.Idx → EReal) (B2 : S1x128.Idx → EReal)
    (y : S5000x128.Idx) (i : S50000x128.Idx)
    (hx : ∀ l : Fin 128, x (ix2 (y 0) l) = X (ix2 (i 0) l)) (ha : ∀ l : Fin 128, a (ix2 (y 0) l) = A (ix2 (i 0) l))
    (hj : (i 1).val = (y 1).val)
    (hw1 : ∀ q, w1 q = W1 q) (hb1 : ∀ q, b1 q = B1 q) (hw2 : ∀ q, w2 q = W2 q) (hb2 : ∀ q, b2 q = B2 q) :
    core x a w1 b1 w2 b2 y = layer (n := 50000) X A W1 (rowVec B1) W2 (rowVec B2) i := by
  obtain rfl : w1 = W1 := funext hw1
  obtain rfl : b1 = B1 := funext hb1
  obtain rfl : w2 = W2 := funext hw2
  obtain rfl : b2 = B2 := funext hb2
  obtain ⟨r, j, rfl⟩ : ∃ (r : Fin 5000) (j : Fin 128), y = ix2 r j := ⟨y 0, y 1, eq_ix2 y⟩
  obtain ⟨r', j', rfl⟩ : ∃ (r' : Fin 50000) (j' : Fin 128), i = ix2 r' j' := ⟨i 0, i 1, eq_ix2 i⟩
  obtain rfl : j' = j := Fin.ext hj
  rw [core_apply]
  exact layer_rows x a X A w1 (rowVec b1) w2 (rowVec b2) r r' j' hx ha

variable (V : (c : Dev nD) → (b : Ref sig .tc) → Buf (Elt Ideal) ((c : Thread nD τ).loc b))

/-! ## Launch 0 -/

/-- The printed index maps of launch 0, decided over its ten points: the two row operands move with the output's
    band, the weights and biases stay at block (0, 0), the output's band number is the point's, below ten. -/
theorem idx0 : ∀ t : Fin cfg0.N, win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every band is some point's. -/
theorem onto0 : ∀ q : Fin 10, ∃ t : Fin cfg0.N, win0_6.index t = ![q.val, 0] :=
  (by decide +kernel : ∀ q : Fin 10, ∃ t : Fin grid0.N, win0_6.index t = ![q.val, 0])

/-- The layer of the arrays as launch 0 finds them. -/
def G0 (c : Dev nD) : S50000x128.Idx → EReal :=
  layer (n := 50000) (V c main_arg0) (V c main_v13) (V c main_arg2) (rowVec (V c main_v14)) (V c main_arg4) (rowVec (V c main_v15))

/-- What point t writes back is band t of that layer. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  rw [pay0_core]
  obtain ⟨e00, e01, e10, e11, e20, e21, e30, e31, e40, e41, e50, e51, e61, e6le⟩ := idx0 t
  funext y
  refine band_eq (iblk0 V c 0 t) (iblk0 V c 1 t) (iblk0 V c 2 t) (iblk0 V c 3 t) (iblk0 V c 4 t) (iblk0 V c 5 t)
    (V c main_arg0) (V c main_v13) (V c main_arg2) (V c main_v14) (V c main_arg4) (V c main_v15) y (((cfg0.win 6).blk t).view.emb y)
    (fun l => ?_) (fun l => ?_) ?_ (fun q => ?_) (fun q => ?_) (fun q => ?_) (fun q => ?_)
  · show V c main_arg0 (((cfg0.win 0).blk t).view.emb (ix2 (y 0) l)) = V c main_arg0 (ix2 ((((cfg0.win 6).blk t).view.emb y) 0) l)
    refine congrArg (V c main_arg0) (funext fun d => Fin.ext ?_)
    match d with
    | ⟨0, _⟩ => show win0_0.index t (0 : Fin 2) * 5000 + 1 * (y 0).val = win0_6.index t (0 : Fin 2) * 5000 + 1 * (y 0).val; omega
    | ⟨1, _⟩ => show win0_0.index t (1 : Fin 2) * 128 + 1 * l.val = l.val; omega
  · show V c main_v13 (((cfg0.win 1).blk t).view.emb (ix2 (y 0) l)) = V c main_v13 (ix2 ((((cfg0.win 6).blk t).view.emb y) 0) l)
    refine congrArg (V c main_v13) (funext fun d => Fin.ext ?_)
    match d with
    | ⟨0, _⟩ => show win0_1.index t (0 : Fin 2) * 5000 + 1 * (y 0).val = win0_6.index t (0 : Fin 2) * 5000 + 1 * (y 0).val; omega
    | ⟨1, _⟩ => show win0_1.index t (1 : Fin 2) * 128 + 1 * l.val = l.val; omega
  · show win0_6.index t (1 : Fin 2) * 128 + 1 * (y 1).val = (y 1).val; omega
  · show V c main_arg2 (((cfg0.win 2).blk t).view.emb q) = V c main_arg2 q
    refine congrArg (V c main_arg2) (funext fun d => Fin.ext ?_)
    match d with
    | ⟨0, _⟩ => show win0_2.index t (0 : Fin 2) * 128 + 1 * (q 0).val = (q 0).val; omega
    | ⟨1, _⟩ => show win0_2.index t (1 : Fin 2) * 128 + 1 * (q 1).val = (q 1).val; omega
  · show V c main_v14 (((cfg0.win 3).blk t).view.emb q) = V c main_v14 q
    refine congrArg (V c main_v14) (funext fun d => Fin.ext ?_)
    match d with
    | ⟨0, _⟩ => show win0_3.index t (0 : Fin 2) * 1 + 1 * (q 0).val = (q 0).val; omega
    | ⟨1, _⟩ => show win0_3.index t (1 : Fin 2) * 128 + 1 * (q 1).val = (q 1).val; omega
  · show V c main_arg4 (((cfg0.win 4).blk t).view.emb q) = V c main_arg4 q
    refine congrArg (V c main_arg4) (funext fun d => Fin.ext ?_)
    match d with
    | ⟨0, _⟩ => show win0_4.index t (0 : Fin 2) * 128 + 1 * (q 0).val = (q 0).val; omega
    | ⟨1, _⟩ => show win0_4.index t (1 : Fin 2) * 128 + 1 * (q 1).val = (q 1).val; omega
  · show V c main_v15 (((cfg0.win 5).blk t).view.emb q) = V c main_v15 q
    refine congrArg (V c main_v15) (funext fun d => Fin.ext ?_)
    match d with
    | ⟨0, _⟩ => show win0_5.index t (0 : Fin 2) * 1 + 1 * (q 0).val = (q 0).val; omega
    | ⟨1, _⟩ => show win0_5.index t (1 : Fin 2) * 128 + 1 * (q 1).val = (q 1).val; omega

/-- An index of the output array is in point t's band iff each coordinate is in the band's range on its axis. -/
theorem mem_band0 (t : Fin cfg0.N) (i : S50000x128.Idx) :
    i ∈ ((cfg0.win 6).blk t).view.set ↔ ∀ d : Fin 2, win0_6.index t d * S5000x128.size d ≤ (i d).val ∧ (i d).val < win0_6.index t d * S5000x128.size d + S5000x128.size d := by
  show i ∈ ((View.whole main_v16).slice (win0_6.rect t)).set ↔ _
  rw [View.set_slice_whole, Rect.mem_set_unit]
  exact Iff.rfl

/-- Row r lies in the band of point r / 5000: the ten bands cover the array. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_band0]
  intro d
  match d with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After launch 0 its output array is the layer of the arrays it found. -/
theorem final0 (c : Dev nD) : (dat0 V c).arrAt 6 cfg0.N = G0 V c :=
  (dat0 V c).arrAt_eq_of_cover 6 _ (fun t _ => flushed0 V c t) (cover0)

/-! ## Launch 1 -/

/-- The printed index maps of launch 1, decided over its ten points: the two row operands move with the output's
    band, the weights and biases stay at block (0, 0), the output's band number is the point's, below ten. -/
theorem idx1 : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

/-- Every band is some point's. -/
theorem onto1 : ∀ q : Fin 10, ∃ t : Fin cfg1.N, win1_6.index t = ![q.val, 0] :=
  (by decide +kernel : ∀ q : Fin 10, ∃ t : Fin grid1.N, win1_6.index t = ![q.val, 0])

/-- The layer of the arrays as launch 1 finds them. -/
def G1 (c : Dev nD) : S50000x128.Idx → EReal :=
  layer (n := 50000) (V c main_v16) (V c main_v34) (V c main_v18) (rowVec (V c main_v35)) (V c main_v22) (rowVec (V c main_v36))

/-- What point t writes back is band t of that layer. -/
theorem flushed1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  rw [pay1_core]
  obtain ⟨e00, e01, e10, e11, e20, e21, e30, e31, e40, e41, e50, e51, e61, e6le⟩ := idx1 t
  funext y
  refine band_eq (iblk1 V c 0 t) (iblk1 V c 1 t) (iblk1 V c 2 t) (iblk1 V c 3 t) (iblk1 V c 4 t) (iblk1 V c 5 t)
    (V c main_v16) (V c main_v34) (V c main_v18) (V c main_v35) (V c main_v22) (V c main_v36) y (((cfg1.win 6).blk t).view.emb y)
    (fun l => ?_) (fun l => ?_) ?_ (fun q => ?_) (fun q => ?_) (fun q => ?_) (fun q => ?_)
  · show V c main_v16 (((cfg1.win 0).blk t).view.emb (ix2 (y 0) l)) = V c main_v16 (ix2 ((((cfg1.win 6).blk t).view.emb y) 0) l)
    refine congrArg (V c main_v16) (funext fun d => Fin.ext ?_)
    match d with
    | ⟨0, _⟩ => show win1_0.index t (0 : Fin 2) * 5000 + 1 * (y 0).val = win1_6.index t (0 : Fin 2) * 5000 + 1 * (y 0).val; omega
    | ⟨1, _⟩ => show win1_0.index t (1 : Fin 2) * 128 + 1 * l.val = l.val; omega
  · show V c main_v34 (((cfg1.win 1).blk t).view.emb (ix2 (y 0) l)) = V c main_v34 (ix2 ((((cfg1.win 6).blk t).view.emb y) 0) l)
    refine congrArg (V c main_v34) (funext fun d => Fin.ext ?_)
    match d with
    | ⟨0, _⟩ => show win1_1.index t (0 : Fin 2) * 5000 + 1 * (y 0).val = win1_6.index t (0 : Fin 2) * 5000 + 1 * (y 0).val; omega
    | ⟨1, _⟩ => show win1_1.index t (1 : Fin 2) * 128 + 1 * l.val = l.val; omega
  · show win1_6.index t (1 : Fin 2) * 128 + 1 * (y 1).val = (y 1).val; omega
  · show V c main_v18 (((cfg1.win 2).blk t).view.emb q) = V c main_v18 q
    refine congrArg (V c main_v18) (funext fun d => Fin.ext ?_)
    match d with
    | ⟨0, _⟩ => show win1_2.index t (0 : Fin 2) * 128 + 1 * (q 0).val = (q 0).val; omega
    | ⟨1, _⟩ => show win1_2.index t (1 : Fin 2) * 128 + 1 * (q 1).val = (q 1).val; omega
  · show V c main_v35 (((cfg1.win 3).blk t).view.emb q) = V c main_v35 q
    refine congrArg (V c main_v35) (funext fun d => Fin.ext ?_)
    match d with
    | ⟨0, _⟩ => show win1_3.index t (0 : Fin 2) * 1 + 1 * (q 0).val = (q 0).val; omega
    | ⟨1, _⟩ => show win1_3.index t (1 : Fin 2) * 128 + 1 * (q 1).val = (q 1).val; omega
  · show V c main_v22 (((cfg1.win 4).blk t).view.emb q) = V c main_v22 q
    refine congrArg (V c main_v22) (funext fun d => Fin.ext ?_)
    match d with
    | ⟨0, _⟩ => show win1_4.index t (0 : Fin 2) * 128 + 1 * (q 0).val = (q 0).val; omega
    | ⟨1, _⟩ => show win1_4.index t (1 : Fin 2) * 128 + 1 * (q 1).val = (q 1).val; omega
  · show V c main_v36 (((cfg1.win 5).blk t).view.emb q) = V c main_v36 q
    refine congrArg (V c main_v36) (funext fun d => Fin.ext ?_)
    match d with
    | ⟨0, _⟩ => show win1_5.index t (0 : Fin 2) * 1 + 1 * (q 0).val = (q 0).val; omega
    | ⟨1, _⟩ => show win1_5.index t (1 : Fin 2) * 128 + 1 * (q 1).val = (q 1).val; omega

/-- An index of the output array is in point t's band iff each coordinate is in the band's range on its axis. -/
theorem mem_band1 (t : Fin cfg1.N) (i : S50000x128.Idx) :
    i ∈ ((cfg1.win 6).blk t).view.set ↔ ∀ d : Fin 2, win1_6.index t d * S5000x128.size d ≤ (i d).val ∧ (i d).val < win1_6.index t d * S5000x128.size d + S5000x128.size d := by
  show i ∈ ((View.whole main_v37).slice (win1_6.rect t)).set ↔ _
  rw [View.set_slice_whole, Rect.mem_set_unit]
  exact Iff.rfl

/-- Row r lies in the band of point r / 5000: the ten bands cover the array. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_band1]
  intro d
  match d with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After launch 1 its output array is the layer of the arrays it found. -/
theorem final1 (c : Dev nD) : (dat1 V c).arrAt 6 cfg1.N = G1 V c :=
  (dat1 V c).arrAt_eq_of_cover 6 _ (fun t _ => flushed1 V c t) (cover1)

/-! ## Launch 2 -/

/-- The printed index maps of launch 2, decided over its ten points: the two row operands move with the output's
    band, the weights and biases stay at block (0, 0), the output's band number is the point's, below ten. -/
theorem idx2 : ∀ t : Fin cfg2.N, win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 9 :=
  (by decide +kernel : ∀ t : Fin grid2.N, _)

/-- Every band is some point's. -/
theorem onto2 : ∀ q : Fin 10, ∃ t : Fin cfg2.N, win2_6.index t = ![q.val, 0] :=
  (by decide +kernel : ∀ q : Fin 10, ∃ t : Fin grid2.N, win2_6.index t = ![q.val, 0])

/-- The layer of the arrays as launch 2 finds them. -/
def G2 (c : Dev nD) : S50000x128.Idx → EReal :=
  layer (n := 50000) (V c main_v37) (V c main_v55) (V c main_v39) (rowVec (V c main_v56)) (V c main_v43) (rowVec (V c main_v57))

/-- What point t writes back is band t of that layer. -/
theorem flushed2 (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  rw [pay2_core]
  obtain ⟨e00, e01, e10, e11, e20, e21, e30, e31, e40, e41, e50, e51, e61, e6le⟩ := idx2 t
  funext y
  refine band_eq (iblk2 V c 0 t) (iblk2 V c 1 t) (iblk2 V c 2 t) (iblk2 V c 3 t) (iblk2 V c 4 t) (iblk2 V c 5 t)
    (V c main_v37) (V c main_v55) (V c main_v39) (V c main_v56) (V c main_v43) (V c main_v57) y (((cfg2.win 6).blk t).view.emb y)
    (fun l => ?_) (fun l => ?_) ?_ (fun q => ?_) (fun q => ?_) (fun q => ?_) (fun q => ?_)
  · show V c main_v37 (((cfg2.win 0).blk t).view.emb (ix2 (y 0) l)) = V c main_v37 (ix2 ((((cfg2.win 6).blk t).view.emb y) 0) l)
    refine congrArg (V c main_v37) (funext fun d => Fin.ext ?_)
    match d with
    | ⟨0, _⟩ => show win2_0.index t (0 : Fin 2) * 5000 + 1 * (y 0).val = win2_6.index t (0 : Fin 2) * 5000 + 1 * (y 0).val; omega
    | ⟨1, _⟩ => show win2_0.index t (1 : Fin 2) * 128 + 1 * l.val = l.val; omega
  · show V c main_v55 (((cfg2.win 1).blk t).view.emb (ix2 (y 0) l)) = V c main_v55 (ix2 ((((cfg2.win 6).blk t).view.emb y) 0) l)
    refine congrArg (V c main_v55) (funext fun d => Fin.ext ?_)
    match d with
    | ⟨0, _⟩ => show win2_1.index t (0 : Fin 2) * 5000 + 1 * (y 0).val = win2_6.index t (0 : Fin 2) * 5000 + 1 * (y 0).val; omega
    | ⟨1, _⟩ => show win2_1.index t (1 : Fin 2) * 128 + 1 * l.val = l.val; omega
  · show win2_6.index t (1 : Fin 2) * 128 + 1 * (y 1).val = (y 1).val; omega
  · show V c main_v39 (((cfg2.win 2).blk t).view.emb q) = V c main_v39 q
    refine congrArg (V c main_v39) (funext fun d => Fin.ext ?_)
    match d with
    | ⟨0, _⟩ => show win2_2.index t (0 : Fin 2) * 128 + 1 * (q 0).val = (q 0).val; omega
    | ⟨1, _⟩ => show win2_2.index t (1 : Fin 2) * 128 + 1 * (q 1).val = (q 1).val; omega
  · show V c main_v56 (((cfg2.win 3).blk t).view.emb q) = V c main_v56 q
    refine congrArg (V c main_v56) (funext fun d => Fin.ext ?_)
    match d with
    | ⟨0, _⟩ => show win2_3.index t (0 : Fin 2) * 1 + 1 * (q 0).val = (q 0).val; omega
    | ⟨1, _⟩ => show win2_3.index t (1 : Fin 2) * 128 + 1 * (q 1).val = (q 1).val; omega
  · show V c main_v43 (((cfg2.win 4).blk t).view.emb q) = V c main_v43 q
    refine congrArg (V c main_v43) (funext fun d => Fin.ext ?_)
    match d with
    | ⟨0, _⟩ => show win2_4.index t (0 : Fin 2) * 128 + 1 * (q 0).val = (q 0).val; omega
    | ⟨1, _⟩ => show win2_4.index t (1 : Fin 2) * 128 + 1 * (q 1).val = (q 1).val; omega
  · show V c main_v57 (((cfg2.win 5).blk t).view.emb q) = V c main_v57 q
    refine congrArg (V c main_v57) (funext fun d => Fin.ext ?_)
    match d with
    | ⟨0, _⟩ => show win2_5.index t (0 : Fin 2) * 1 + 1 * (q 0).val = (q 0).val; omega
    | ⟨1, _⟩ => show win2_5.index t (1 : Fin 2) * 128 + 1 * (q 1).val = (q 1).val; omega

/-- An index of the output array is in point t's band iff each coordinate is in the band's range on its axis. -/
theorem mem_band2 (t : Fin cfg2.N) (i : S50000x128.Idx) :
    i ∈ ((cfg2.win 6).blk t).view.set ↔ ∀ d : Fin 2, win2_6.index t d * S5000x128.size d ≤ (i d).val ∧ (i d).val < win2_6.index t d * S5000x128.size d + S5000x128.size d := by
  show i ∈ ((View.whole main_v58).slice (win2_6.rect t)).set ↔ _
  rw [View.set_slice_whole, Rect.mem_set_unit]
  exact Iff.rfl

/-- Row r lies in the band of point r / 5000: the ten bands cover the array. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_band2]
  intro d
  match d with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After launch 2 its output array is the layer of the arrays it found. -/
theorem final2 (c : Dev nD) : (dat2 V c).arrAt 6 cfg2.N = G2 V c :=
  (dat2 V c).arrAt_eq_of_cover 6 _ (fun t _ => flushed2 V c t) (cover2)

end Cert.KernelIdeal.Bands

end
-- ==== Proof.RefLayers.lean ====
/-
  The reference network, layer by layer.

  The reference applies three times the same operator to whole arrays: with `a` the sum over incoming edges of the
  rows of `x` at the edges' sources,

      x ↦ max (max ((x + a) · w1 + b1) 0 · w2 + b2) 0,

  the products the host's dot_general, each bias a vector [128] spread down the 50000 rows, each rectifier a maximum
  against the splat of the zero word. Index by index that operator is `GinLayer.layer`: a dot_general entry is the
  row-by-column sum, a spread bias reads its one entry, the splat reads the word. The aggregation is left as the
  reference states it (a scatter-add of gathered rows); only its being the SAME function of `x` and of the edge list
  at each of the three layers is used.
-/
import proofs.«142028_j23605140259119_1_alg».proof.Proof.Gen.ReferenceIdeal.Read
import proofs.«142028_j23605140259119_1_alg».proof.Proof.GinLayer

noncomputable section

namespace Cert.ReferenceIdeal.Layers

open Cert.ReferenceIdeal Cert.ReferenceIdeal.Gen Cert.ReferenceIdeal.Read
open Idealize.ShloMosaic Idealize.ShloMosaic.ValueIdx Cert.LibDense Cert.GinLayer

/-- Node features and everything of their shape. -/
abbrev Nodes := FVec Ideal S50000x128 .f32
/-- A weight matrix. -/
abbrev Mat := FVec Ideal S128x128 .f32
/-- A bias vector. -/
abbrev Bias := FVec Ideal S128 .f32
/-- The edge list: row 0 the sources, row 1 the destinations. -/
abbrev Edges := IVec S2x800000 32
/-- The stacked weight matrices of the second and third layers. -/
abbrev Mats := FVec Ideal S2x128x128 .f32
/-- Their stacked bias vectors. -/
abbrev Biases := FVec Ideal S2x128 .f32

/-- The neighbour sum as the reference computes it: rows of `x` gathered at the sources, scatter-added at the
    destinations into zeros. -/
abbrev agg (x : Nodes) (e : Edges) : Nodes := val_main_v13 (F := Ideal) x e

/-- A bias vector spread down the rows, the host's way: [128] → [1, 128] → [50000, 128]. -/
abbrev spread (b : Bias) : Nodes :=
  broadcastInDim S50000x128 ![0, 1] bcast_S1x128_S50000x128_0_1 (broadcastInDim S1x128 ![1] bcast_S128_S1x128_1 b)

/-- The splat of the zero word. -/
abbrev zeros : Nodes := broadcastInDim S50000x128 ![] bcast_S_S50000x128 (constant (F := Ideal) S_ .f32 0x00000000#32)

/-- One layer in the host's spelling, on whole arrays. -/
def hostLayer (x a : Nodes) (w1 : Mat) (b1 : Bias) (w2 : Mat) (b2 : Bias) : Nodes :=
  maximumf (addf (Host.dotGeneral (F := Ideal) dot_S50000x128_S128x128_S50000x128_1_0_0_1_n_n none
    (maximumf (addf (Host.dotGeneral (F := Ideal) dot_S50000x128_S128x128_S50000x128_1_0_0_1_n_n none (addf x a) w1) (spread b1)) zeros)
    w2) (spread b2)) zeros

/-- A spread bias at (r, j) is the vector's entry j. -/
theorem spread_apply (b : Bias) (r : Fin 50000) (j : Fin 128) : spread b (ix2 r j) = b (ix1 j) :=
  (val_main_v17_apply (F := Ideal) b (ix2 r j)).trans
    ((val_main_v16_apply (F := Ideal) b _).trans (congrArg b (funext fun a => match a with | ⟨0, _⟩ => rfl)))

/-- The splat at any index is the word's value. -/
theorem zeros_apply (i : S50000x128.Idx) : zeros i = zero :=
  (val_main_call0_v0_apply (F := Ideal) i).trans rfl

/-- The host's product at an entry is the row-by-column sum. -/
theorem dot_apply (l : Nodes) (w : Mat) (i : S50000x128.Idx) :
    Host.dotGeneral (F := Ideal) dot_S50000x128_S128x128_S50000x128_1_0_0_1_n_n none l w i = prod (n := 50000) (K := 128) (d := 128) l w i := by
  simp only [Host.dotGeneral]
  exact dotGeneral_plain (M := 50000) (K := 128) (N := 128) _ l w i

/-- The host's layer is the layer, index by index. -/
theorem hostLayer_eq (x a : Nodes) (w1 : Mat) (b1 : Bias) (w2 : Mat) (b2 : Bias) :
    hostLayer x a w1 b1 w2 b2 = layer (n := 50000) x a w1 b1 w2 b2 := by
  funext i
  obtain ⟨r, j, rfl⟩ : ∃ (r : Fin 50000) (j : Fin 128), i = ix2 r j := ⟨i 0, i 1, eq_ix2 i⟩
  have hh : ∀ k : Fin 128, (maximumf (addf (Host.dotGeneral (F := Ideal) dot_S50000x128_S128x128_S50000x128_1_0_0_1_n_n none (addf x a) w1) (spread b1)) zeros : Nodes) (ix2 r k)
      = hidden (n := 50000) x a w1 b1 (ix2 r k) := fun k => by
    rw [hidden_apply, maximumf_apply, addf_apply, zeros_apply, spread_apply, dot_apply]
    rfl
  rw [layer_apply]
  unfold hostLayer
  rw [maximumf_apply, addf_apply, zeros_apply, spread_apply, dot_apply]
  refine congrArg (fun s => max (s + b2 (ix1 j)) zero) ?_
  exact Finset.sum_congr rfl fun k _ => congrArg (· * w2 (ix2 k j)) (hh k)

/-! ## The three layers of the reference are that operator -/

theorem stage1 (x0 : Nodes) (x1 : Edges) (x2 : Mat) (x3 : Bias) (x4 : Mat) (x5 : Bias) :
    val_main_v24 (F := Ideal) x0 x1 x2 x3 x4 x5 = hostLayer x0 (agg x0 x1) x2 x3 x4 x5 := by
  simp only [val_main_v24, val_main_v23, val_main_v22, val_main_v21, val_main_v20, val_main_v19, val_main_v18, val_main_v17, val_main_v16,
    val_main_v15, val_main_v14, val_main_call0_v0, val_main_call0_cst, val_main_call1_v0, val_main_call1_cst, hostLayer]

/-- The second layer's neighbour sum is the first's function, of the first layer's result and the same edge list. -/
theorem agg2 (x0 : Nodes) (x1 : Edges) (x2 : Mat) (x3 : Bias) (x4 : Mat) (x5 : Bias) :
    val_main_v42 (F := Ideal) x0 x1 x2 x3 x4 x5 = agg (val_main_v24 (F := Ideal) x0 x1 x2 x3 x4 x5) x1 := by
  simp only [val_main_v42, val_main_v39, val_main_v38, val_main_v37, val_main_v34, val_main_v33, val_main_c_1, val_main_v36, val_main_v35,
    val_main_c_2, val_main_v40, val_main_cst_3, val_main_v41, val_main_v13, val_main_v10, val_main_v9, val_main_v8, val_main_v5, val_main_v4, val_main_c, val_main_v7, val_main_v6, val_main_c_0, val_main_v11, val_main_cst, val_main_v12]

theorem stage2 (x0 : Nodes) (x1 : Edges) (x2 : Mat) (x3 : Bias) (x4 : Mat) (x5 : Bias)
    (x6 : Mats) (x7 : Biases)
    (x8 : Mats) (x9 : Biases) :
    val_main_v53 (F := Ideal) x0 x1 x2 x3 x4 x5 x6 x7 x8 x9
      = hostLayer (val_main_v24 (F := Ideal) x0 x1 x2 x3 x4 x5) (val_main_v42 (F := Ideal) x0 x1 x2 x3 x4 x5)
          (val_main_v26 (F := Ideal) x6) (val_main_v28 (F := Ideal) x7) (val_main_v30 (F := Ideal) x8) (val_main_v32 (F := Ideal) x9) := by
  simp only [val_main_v53, val_main_v52, val_main_v51, val_main_v50, val_main_v49, val_main_v48, val_main_v47, val_main_v46, val_main_v45,
    val_main_v44, val_main_v43, val_main_call2_v0, val_main_call2_cst, val_main_call3_v0, val_main_call3_cst, hostLayer]

theorem agg3 (x0 : Nodes) (x1 : Edges) (x2 : Mat) (x3 : Bias) (x4 : Mat) (x5 : Bias)
    (x6 : Mats) (x7 : Biases)
    (x8 : Mats) (x9 : Biases) :
    val_main_v71 (F := Ideal) x0 x1 x2 x3 x4 x5 x6 x7 x8 x9 = agg (val_main_v53 (F := Ideal) x0 x1 x2 x3 x4 x5 x6 x7 x8 x9) x1 := by
  simp only [val_main_v71, val_main_v68, val_main_v67, val_main_v66, val_main_v63, val_main_v62, val_main_c_4, val_main_v65, val_main_v64,
    val_main_c_5, val_main_v69, val_main_cst_6, val_main_v70, val_main_v13, val_main_v10, val_main_v9, val_main_v8, val_main_v5, val_main_v4, val_main_c, val_main_v7, val_main_v6, val_main_c_0, val_main_v11, val_main_cst, val_main_v12]

theorem stage3 (x0 : Nodes) (x1 : Edges) (x2 : Mat) (x3 : Bias) (x4 : Mat) (x5 : Bias)
    (x6 : Mats) (x7 : Biases)
    (x8 : Mats) (x9 : Biases) :
    val_main_v82 (F := Ideal) x0 x1 x2 x3 x4 x5 x6 x7 x8 x9
      = hostLayer (val_main_v53 (F := Ideal) x0 x1 x2 x3 x4 x5 x6 x7 x8 x9) (val_main_v71 (F := Ideal) x0 x1 x2 x3 x4 x5 x6 x7 x8 x9)
          (val_main_v55 (F := Ideal) x6) (val_main_v57 (F := Ideal) x7) (val_main_v59 (F := Ideal) x8) (val_main_v61 (F := Ideal) x9) := by
  simp only [val_main_v82, val_main_v81, val_main_v80, val_main_v79, val_main_v78, val_main_v77, val_main_v76, val_main_v75, val_main_v74,
    val_main_v73, val_main_v72, val_main_call4_v0, val_main_call4_cst, val_main_call5_v0, val_main_call5_cst, hostLayer]

/-! ## The network as one function of the ten arguments -/

/-- The three layers composed and the result given its leading axis of size one: what both programs compute. The
    second and third layers take their weights from the two slices of the stacked arguments. -/
def net (x0 : Nodes) (x1 : Edges) (x2 : Mat) (x3 : Bias) (x4 : Mat) (x5 : Bias)
    (x6 : Mats) (x7 : Biases)
    (x8 : Mats) (x9 : Biases) :
    FVec Ideal S1x50000x128 .f32 :=
  let y1 : Nodes := layer (n := 50000) x0 (agg x0 x1) x2 x3 x4 x5
  let y2 : Nodes := layer (n := 50000) y1 (agg y1 x1) (val_main_v26 (F := Ideal) x6) (val_main_v28 (F := Ideal) x7) (val_main_v30 (F := Ideal) x8) (val_main_v32 (F := Ideal) x9)
  let y3 : Nodes := layer (n := 50000) y2 (agg y2 x1) (val_main_v55 (F := Ideal) x6) (val_main_v57 (F := Ideal) x7) (val_main_v59 (F := Ideal) x8) (val_main_v61 (F := Ideal) x9)
  broadcastInDim S1x50000x128 ![1, 2] bcast_S50000x128_S1x50000x128_1_2 y3

/-- The reference's result is the network. -/
theorem ref_net (x0 : Nodes) (x1 : Edges) (x2 : Mat) (x3 : Bias) (x4 : Mat) (x5 : Bias)
    (x6 : Mats) (x7 : Biases)
    (x8 : Mats) (x9 : Biases) :
    val_main_v83 (F := Ideal) x0 x1 x2 x3 x4 x5 x6 x7 x8 x9 = net x0 x1 x2 x3 x4 x5 x6 x7 x8 x9 := by
  have h1 : val_main_v24 (F := Ideal) x0 x1 x2 x3 x4 x5 = layer (n := 50000) x0 (agg x0 x1) x2 x3 x4 x5 :=
    (stage1 x0 x1 x2 x3 x4 x5).trans (hostLayer_eq _ _ _ _ _ _)
  have h2 : val_main_v53 (F := Ideal) x0 x1 x2 x3 x4 x5 x6 x7 x8 x9 = _ :=
    (stage2 x0 x1 x2 x3 x4 x5 x6 x7 x8 x9).trans (hostLayer_eq _ _ _ _ _ _)
  have h3 : val_main_v82 (F := Ideal) x0 x1 x2 x3 x4 x5 x6 x7 x8 x9 = _ :=
    (stage3 x0 x1 x2 x3 x4 x5 x6 x7 x8 x9).trans (hostLayer_eq _ _ _ _ _ _)
  unfold val_main_v83 net
  rw [h3, agg3, h2, agg2, h1]

end Cert.ReferenceIdeal.Layers

end
-- ==== Proof.KernelFold.lean ====
/-
  The idealized kernel's result read back through the seven segments.

  Each stretch of host operations is a literal list, so a buffer's contents after it are that list's operations
  applied to the contents before it; each launch leaves its output array at the layer of the arrays it found
  (the bands module) and every other buffer as it was. Walking from the result buffer back to the launch memory:
  the result is the last layer's output given a leading axis of size one; each layer's inputs are the previous
  layer's output, the neighbour sum of that output along the edge list (the SAME scatter-add of gathered rows the
  reference spells, over the same two slices of the edge list), and the layer's weights and biases — the first
  layer's from four arguments, the other two from the slices of the stacked arguments, each bias reshaped to a row
  [1, 128] by the host and read back along that row by the kernel.
-/
import proofs.«142028_j23605140259119_1_alg».proof.Proof.KernelBands
import proofs.«142028_j23605140259119_1_alg».proof.Proof.RefLayers
import Idealize.ShloMosaic.Lib.StableHlo.Run

set_option maxRecDepth 16384

noncomputable section

namespace Cert.KernelIdeal.Fold

open Cert.KernelIdeal Cert.KernelIdeal.Gen Cert.KernelIdeal.Dense Cert.KernelIdeal.Bands
open Idealize.ShloMosaic Idealize.ShloMosaic.TcCoe Idealize.ShloMosaic.ValueIdx Idealize.ShloMosaic.StableHlo Cert.GinLayer
open Idealize.SL.Sem
open Cert.ReferenceIdeal.Read Cert.ReferenceIdeal.Layers

variable (m : (ℓ : Loc nD τ sig) → Buf (Elt Ideal) ℓ) (ρ : Dev nD → PrngReg) (c : Dev nD)

/-! ## The ten arguments as launched, on core `c` -/

abbrev a0 : FVec Ideal S50000x128 .f32 := m ((c : Thread nD τ).loc main_arg0)
abbrev a1 : IVec S2x800000 32 := m ((c : Thread nD τ).loc main_arg1)
abbrev a2 : FVec Ideal S128x128 .f32 := m ((c : Thread nD τ).loc main_arg2)
abbrev a3 : FVec Ideal S128 .f32 := m ((c : Thread nD τ).loc main_arg3)
abbrev a4 : FVec Ideal S128x128 .f32 := m ((c : Thread nD τ).loc main_arg4)
abbrev a5 : FVec Ideal S128 .f32 := m ((c : Thread nD τ).loc main_arg5)
abbrev a6 : FVec Ideal S2x128x128 .f32 := m ((c : Thread nD τ).loc main_arg6)
abbrev a7 : FVec Ideal S2x128 .f32 := m ((c : Thread nD τ).loc main_arg7)
abbrev a8 : FVec Ideal S2x128x128 .f32 := m ((c : Thread nD τ).loc main_arg8)
abbrev a9 : FVec Ideal S2x128 .f32 := m ((c : Thread nD τ).loc main_arg9)

/-- A vector [128] reshaped to a row [1, 128] and read back along the row is the vector. -/
theorem rowVec_reshape (v : FVec Ideal S128 .f32) : rowVec (shapeCast S1x128 v shapeCasts_S128_S1x128) = v := by
  funext q
  obtain ⟨j, rfl⟩ : ∃ j : Fin 128, q = ix1 j := ⟨q 0, eq_ix1 q⟩
  show shapeCast S1x128 v shapeCasts_S128_S1x128 (ix2 (⟨0, Nat.one_pos⟩ : Fin 1) j) = v (ix1 j)
  exact (shapeCast_addUnit_apply ![128] v shapeCasts_S128_S1x128 _).trans
    (congrArg v (funext fun d => match d with | ⟨0, _⟩ => rfl))

/-! ## The first stretch and the first launch -/

theorem s0_arg0 : W1 m ρ c (Proc.devRef .tc main_arg0) = a0 m c := by
  show StableHlo.after hostOps0 (W0 m ρ c) (Proc.devRef .tc main_arg0) = _
  after_results_simp <;> rfl
theorem s0_arg2 : W1 m ρ c (Proc.devRef .tc main_arg2) = a2 m c := by
  show StableHlo.after hostOps0 (W0 m ρ c) (Proc.devRef .tc main_arg2) = _
  after_results_simp <;> rfl
theorem s0_arg4 : W1 m ρ c (Proc.devRef .tc main_arg4) = a4 m c := by
  show StableHlo.after hostOps0 (W0 m ρ c) (Proc.devRef .tc main_arg4) = _
  after_results_simp <;> rfl
theorem s0_v14 : W1 m ρ c (Proc.devRef .tc main_v14) = shapeCast S1x128 (a3 m c) shapeCasts_S128_S1x128 := by
  show StableHlo.after hostOps0 (W0 m ρ c) (Proc.devRef .tc main_v14) = _
  after_results_simp <;> rfl
theorem s0_v15 : W1 m ρ c (Proc.devRef .tc main_v15) = shapeCast S1x128 (a5 m c) shapeCasts_S128_S1x128 := by
  show StableHlo.after hostOps0 (W0 m ρ c) (Proc.devRef .tc main_v15) = _
  after_results_simp <;> rfl
/-- The edge sources and destinations, as both programs slice them off the edge list. -/
theorem s0_v1 : W1 m ρ c (Proc.devRef .tc main_v1) = val_main_v1 (F := Ideal) (a1 m c) := by
  show StableHlo.after hostOps0 (W0 m ρ c) (Proc.devRef .tc main_v1) = _
  after_results_simp
  simp only [val_main_v1, val_main_v0]
  rfl
theorem s0_v3 : W1 m ρ c (Proc.devRef .tc main_v3) = val_main_v3 (F := Ideal) (a1 m c) := by
  show StableHlo.after hostOps0 (W0 m ρ c) (Proc.devRef .tc main_v3) = _
  after_results_simp
  simp only [val_main_v3, val_main_v2]
  rfl
/-- The first neighbour sum is the reference's, of the features and the edge list as launched. -/
theorem s0_v13 : W1 m ρ c (Proc.devRef .tc main_v13) = agg (a0 m c) (a1 m c) := by
  show StableHlo.after hostOps0 (W0 m ρ c) (Proc.devRef .tc main_v13) = _
  after_results_simp
  simp only [agg, val_main_v13, val_main_v10, val_main_v9, val_main_v8, val_main_v5, val_main_v4, val_main_c, val_main_v7, val_main_v6,
    val_main_c_0, val_main_v11, val_main_cst, val_main_v12, val_main_v3, val_main_v2, val_main_v1, val_main_v0]
  rfl

/-- The first layer's output. -/
def y1 : FVec Ideal S50000x128 .f32 := layer (n := 50000) (a0 m c) (agg (a0 m c) (a1 m c)) (a2 m c) (a3 m c) (a4 m c) (a5 m c)

theorem l0_v16 : W2 m ρ c (Proc.devRef .tc main_v16) = y1 m c := by
  refine (W2_arr m ρ c 6).trans ((final0 (V1 m ρ) c).trans ?_)
  show layer (n := 50000) (W1 m ρ c (Proc.devRef .tc main_arg0)) (W1 m ρ c (Proc.devRef .tc main_v13)) (W1 m ρ c (Proc.devRef .tc main_arg2))
    (rowVec (W1 m ρ c (Proc.devRef .tc main_v14))) (W1 m ρ c (Proc.devRef .tc main_arg4)) (rowVec (W1 m ρ c (Proc.devRef .tc main_v15))) = _
  rw [s0_arg0, s0_v13, s0_arg2, s0_v14, s0_arg4, s0_v15, rowVec_reshape, rowVec_reshape]
  rfl

/-! ## Buffers carried past the launches: the edge slices and the stacked arguments

No launch writes them (they are none of its arrays) and no later stretch does: at every boundary they hold what
the first stretch left, or the launch memory. -/

theorem k1_v1 : W1 m ρ c (Proc.devRef .tc main_v1) = val_main_v1 (F := Ideal) (a1 m c) := s0_v1 m ρ c
theorem k2_v1 : W2 m ρ c (Proc.devRef .tc main_v1) = val_main_v1 (F := Ideal) (a1 m c) := (W2_of_ne m ρ c main_v1 (by decide)).trans (k1_v1 m ρ c)
theorem k3_v1 : W3 m ρ c (Proc.devRef .tc main_v1) = val_main_v1 (F := Ideal) (a1 m c) := by
  show StableHlo.after hostOps1 (W2 m ρ c) (Proc.devRef .tc main_v1) = _
  after_results_simp
  exact k2_v1 m ρ c
theorem k4_v1 : W4 m ρ c (Proc.devRef .tc main_v1) = val_main_v1 (F := Ideal) (a1 m c) := (W4_of_ne m ρ c main_v1 (by decide)).trans (k3_v1 m ρ c)

theorem k1_v3 : W1 m ρ c (Proc.devRef .tc main_v3) = val_main_v3 (F := Ideal) (a1 m c) := s0_v3 m ρ c
theorem k2_v3 : W2 m ρ c (Proc.devRef .tc main_v3) = val_main_v3 (F := Ideal) (a1 m c) := (W2_of_ne m ρ c main_v3 (by decide)).trans (k1_v3 m ρ c)
theorem k3_v3 : W3 m ρ c (Proc.devRef .tc main_v3) = val_main_v3 (F := Ideal) (a1 m c) := by
  show StableHlo.after hostOps1 (W2 m ρ c) (Proc.devRef .tc main_v3) = _
  after_results_simp
  exact k2_v3 m ρ c
theorem k4_v3 : W4 m ρ c (Proc.devRef .tc main_v3) = val_main_v3 (F := Ideal) (a1 m c) := (W4_of_ne m ρ c main_v3 (by decide)).trans (k3_v3 m ρ c)

theorem k1_arg6 : W1 m ρ c (Proc.devRef .tc main_arg6) = a6 m c := by
  show StableHlo.after hostOps0 (W0 m ρ c) (Proc.devRef .tc main_arg6) = _
  after_results_simp <;> rfl
theorem k2_arg6 : W2 m ρ c (Proc.devRef .tc main_arg6) = a6 m c := (W2_of_ne m ρ c main_arg6 (by decide)).trans (k1_arg6 m ρ c)
theorem k3_arg6 : W3 m ρ c (Proc.devRef .tc main_arg6) = a6 m c := by
  show StableHlo.after hostOps1 (W2 m ρ c) (Proc.devRef .tc main_arg6) = _
  after_results_simp
  exact k2_arg6 m ρ c
theorem k4_arg6 : W4 m ρ c (Proc.devRef .tc main_arg6) = a6 m c := (W4_of_ne m ρ c main_arg6 (by decide)).trans (k3_arg6 m ρ c)

theorem k1_arg7 : W1 m ρ c (Proc.devRef .tc main_arg7) = a7 m c := by
  show StableHlo.after hostOps0 (W0 m ρ c) (Proc.devRef .tc main_arg7) = _
  after_results_simp <;> rfl
theorem k2_arg7 : W2 m ρ c (Proc.devRef .tc main_arg7) = a7 m c := (W2_of_ne m ρ c main_arg7 (by decide)).trans (k1_arg7 m ρ c)
theorem k3_arg7 : W3 m ρ c (Proc.devRef .tc main_arg7) = a7 m c := by
  show StableHlo.after hostOps1 (W2 m ρ c) (Proc.devRef .tc main_arg7) = _
  after_results_simp
  exact k2_arg7 m ρ c
theorem k4_arg7 : W4 m ρ c (Proc.devRef .tc main_arg7) = a7 m c := (W4_of_ne m ρ c main_arg7 (by decide)).trans (k3_arg7 m ρ c)

theorem k1_arg8 : W1 m ρ c (Proc.devRef .tc main_arg8) = a8 m c := by
  show StableHlo.after hostOps0 (W0 m ρ c) (Proc.devRef .tc main_arg8) = _
  after_results_simp <;> rfl
theorem k2_arg8 : W2 m ρ c (Proc.devRef .tc main_arg8) = a8 m c := (W2_of_ne m ρ c main_arg8 (by decide)).trans (k1_arg8 m ρ c)
theorem k3_arg8 : W3 m ρ c (Proc.devRef .tc main_arg8) = a8 m c := by
  show StableHlo.after hostOps1 (W2 m ρ c) (Proc.devRef .tc main_arg8) = _
  after_results_simp
  exact k2_arg8 m ρ c
theorem k4_arg8 : W4 m ρ c (Proc.devRef .tc main_arg8) = a8 m c := (W4_of_ne m ρ c main_arg8 (by decide)).trans (k3_arg8 m ρ c)

theorem k1_arg9 : W1 m ρ c (Proc.devRef .tc main_arg9) = a9 m c := by
  show StableHlo.after hostOps0 (W0 m ρ c) (Proc.devRef .tc main_arg9) = _
  after_results_simp <;> rfl
theorem k2_arg9 : W2 m ρ c (Proc.devRef .tc main_arg9) = a9 m c := (W2_of_ne m ρ c main_arg9 (by decide)).trans (k1_arg9 m ρ c)
theorem k3_arg9 : W3 m ρ c (Proc.devRef .tc main_arg9) = a9 m c := by
  show StableHlo.after hostOps1 (W2 m ρ c) (Proc.devRef .tc main_arg9) = _
  after_results_simp
  exact k2_arg9 m ρ c
theorem k4_arg9 : W4 m ρ c (Proc.devRef .tc main_arg9) = a9 m c := (W4_of_ne m ρ c main_arg9 (by decide)).trans (k3_arg9 m ρ c)

/-! ## The second stretch and the second launch -/

theorem s1_v16 : W3 m ρ c (Proc.devRef .tc main_v16) = y1 m c := by
  show StableHlo.after hostOps1 (W2 m ρ c) (Proc.devRef .tc main_v16) = _
  after_results_simp
  exact l0_v16 m ρ c
/-- The second neighbour sum: the same function, of the first layer's output and the same edge slices. -/
theorem s1_v34 : W3 m ρ c (Proc.devRef .tc main_v34) = agg (y1 m c) (a1 m c) := by
  show StableHlo.after hostOps1 (W2 m ρ c) (Proc.devRef .tc main_v34) = _
  after_results_simp
  rw [l0_v16, k2_v1, k2_v3]
  simp only [agg, val_main_v13, val_main_v10, val_main_v9, val_main_v8, val_main_v5, val_main_v4, val_main_c, val_main_v7, val_main_v6,
    val_main_c_0, val_main_v11, val_main_cst, val_main_v12]
  rfl
theorem s1_v18 : W3 m ρ c (Proc.devRef .tc main_v18) = val_main_v26 (F := Ideal) (a6 m c) := by
  show StableHlo.after hostOps1 (W2 m ρ c) (Proc.devRef .tc main_v18) = _
  after_results_simp
  rw [k2_arg6]
  simp only [val_main_v26, val_main_v25]
  rfl
theorem s1_v22 : W3 m ρ c (Proc.devRef .tc main_v22) = val_main_v30 (F := Ideal) (a8 m c) := by
  show StableHlo.after hostOps1 (W2 m ρ c) (Proc.devRef .tc main_v22) = _
  after_results_simp
  rw [k2_arg8]
  simp only [val_main_v30, val_main_v29]
  rfl
theorem s1_v35 : W3 m ρ c (Proc.devRef .tc main_v35) = shapeCast S1x128 (val_main_v28 (F := Ideal) (a7 m c)) shapeCasts_S128_S1x128 := by
  show StableHlo.after hostOps1 (W2 m ρ c) (Proc.devRef .tc main_v35) = _
  after_results_simp
  rw [k2_arg7]
  simp only [val_main_v28, val_main_v27]
  rfl
theorem s1_v36 : W3 m ρ c (Proc.devRef .tc main_v36) = shapeCast S1x128 (val_main_v32 (F := Ideal) (a9 m c)) shapeCasts_S128_S1x128 := by
  show StableHlo.after hostOps1 (W2 m ρ c) (Proc.devRef .tc main_v36) = _
  after_results_simp
  rw [k2_arg9]
  simp only [val_main_v32, val_main_v31]
  rfl

/-- The second layer's output. -/
def y2 : FVec Ideal S50000x128 .f32 :=
  layer (n := 50000) (y1 m c) (agg (y1 m c) (a1 m c)) (val_main_v26 (F := Ideal) (a6 m c)) (val_main_v28 (F := Ideal) (a7 m c))
    (val_main_v30 (F := Ideal) (a8 m c)) (val_main_v32 (F := Ideal) (a9 m c))

theorem l1_v37 : W4 m ρ c (Proc.devRef .tc main_v37) = y2 m c := by
  refine (W4_arr m ρ c 6).trans ((final1 (V3 m ρ) c).trans ?_)
  show layer (n := 50000) (W3 m ρ c (Proc.devRef .tc main_v16)) (W3 m ρ c (Proc.devRef .tc main_v34)) (W3 m ρ c (Proc.devRef .tc main_v18))
    (rowVec (W3 m ρ c (Proc.devRef .tc main_v35))) (W3 m ρ c (Proc.devRef .tc main_v22)) (rowVec (W3 m ρ c (Proc.devRef .tc main_v36))) = _
  rw [s1_v16, s1_v34, s1_v18, s1_v35, s1_v22, s1_v36, rowVec_reshape, rowVec_reshape]
  rfl

/-! ## The third stretch and the third launch -/

theorem s2_v37 : W5 m ρ c (Proc.devRef .tc main_v37) = y2 m c := by
  show StableHlo.after hostOps2 (W4 m ρ c) (Proc.devRef .tc main_v37) = _
  after_results_simp
  exact l1_v37 m ρ c
/-- The third neighbour sum: the same function again, of the second layer's output. -/
theorem s2_v55 : W5 m ρ c (Proc.devRef .tc main_v55) = agg (y2 m c) (a1 m c) := by
  show StableHlo.after hostOps2 (W4 m ρ c) (Proc.devRef .tc main_v55) = _
  after_results_simp
  rw [l1_v37, k4_v1, k4_v3]
  simp only [agg, val_main_v13, val_main_v10, val_main_v9, val_main_v8, val_main_v5, val_main_v4, val_main_c, val_main_v7, val_main_v6,
    val_main_c_0, val_main_v11, val_main_cst, val_main_v12]
  rfl
theorem s2_v39 : W5 m ρ c (Proc.devRef .tc main_v39) = val_main_v55 (F := Ideal) (a6 m c) := by
  show StableHlo.after hostOps2 (W4 m ρ c) (Proc.devRef .tc main_v39) = _
  after_results_simp
  rw [k4_arg6]
  simp only [val_main_v55, val_main_v54]
  rfl
theorem s2_v43 : W5 m ρ c (Proc.devRef .tc main_v43) = val_main_v59 (F := Ideal) (a8 m c) := by
  show StableHlo.after hostOps2 (W4 m ρ c) (Proc.devRef .tc main_v43) = _
  after_results_simp
  rw [k4_arg8]
  simp only [val_main_v59, val_main_v58]
  rfl
theorem s2_v56 : W5 m ρ c (Proc.devRef .tc main_v56) = shapeCast S1x128 (val_main_v57 (F := Ideal) (a7 m c)) shapeCasts_S128_S1x128 := by
  show StableHlo.after hostOps2 (W4 m ρ c) (Proc.devRef .tc main_v56) = _
  after_results_simp
  rw [k4_arg7]
  simp only [val_main_v57, val_main_v56]
  rfl
theorem s2_v57 : W5 m ρ c (Proc.devRef .tc main_v57) = shapeCast S1x128 (val_main_v61 (F := Ideal) (a9 m c)) shapeCasts_S128_S1x128 := by
  show StableHlo.after hostOps2 (W4 m ρ c) (Proc.devRef .tc main_v57) = _
  after_results_simp
  rw [k4_arg9]
  simp only [val_main_v61, val_main_v60]
  rfl

/-- The third layer's output. -/
def y3 : FVec Ideal S50000x128 .f32 :=
  layer (n := 50000) (y2 m c) (agg (y2 m c) (a1 m c)) (val_main_v55 (F := Ideal) (a6 m c)) (val_main_v57 (F := Ideal) (a7 m c))
    (val_main_v59 (F := Ideal) (a8 m c)) (val_main_v61 (F := Ideal) (a9 m c))

theorem l2_v58 : W6 m ρ c (Proc.devRef .tc main_v58) = y3 m c := by
  refine (W6_arr m ρ c 6).trans ((final2 (V5 m ρ) c).trans ?_)
  show layer (n := 50000) (W5 m ρ c (Proc.devRef .tc main_v37)) (W5 m ρ c (Proc.devRef .tc main_v55)) (W5 m ρ c (Proc.devRef .tc main_v39))
    (rowVec (W5 m ρ c (Proc.devRef .tc main_v56))) (W5 m ρ c (Proc.devRef .tc main_v43)) (rowVec (W5 m ρ c (Proc.devRef .tc main_v57))) = _
  rw [s2_v37, s2_v55, s2_v39, s2_v56, s2_v43, s2_v57, rowVec_reshape, rowVec_reshape]
  rfl

/-! ## The last stretch: the result -/

/-- The result buffer ends at the network of the ten arguments as launched. -/
theorem result_eq : W7 m ρ c (Proc.devRef .tc main_v59)
    = net (a0 m c) (a1 m c) (a2 m c) (a3 m c) (a4 m c) (a5 m c) (a6 m c) (a7 m c) (a8 m c) (a9 m c) := by
  show StableHlo.after hostOps3 (W6 m ρ c) (Proc.devRef .tc main_v59) = _
  after_results_simp
  rw [l2_v58]
  rfl

end Cert.KernelIdeal.Fold

end
-- ==== Proof.lean ====
/-
  A three-layer graph-isomorphism network on 50000 nodes with 800000 edges and 128 features: the kernel program
  against its reference, equal on the extended reals.

  Both programs compute, three times over, with `a` the sum over the edges into a node of the feature rows at the
  edges' sources (a scatter-add of gathered rows, spelt the same in both),

      x ↦ max (max ((x + a) · w1 + b1) 0 · w2 + b2) 0,

  and give the result a leading axis of size one. The reference does the dense part on whole arrays with the host's
  dot_general and biases spread down the rows; the kernel program does it in three launches of one kernel over ten
  bands of 5000 rows, the products through the matrix unit in a narrower format into a zero accumulator, the biases
  as rows [1, 128]. On the extended reals a change of format is the identity, a product entry is the same finite
  row-by-column sum on either side, and an output row depends on its own input row only, so the bands assemble to the
  whole-array layer. No law used needs a finite value: the precondition is not opened.

  The frames of the two kernel programs are the generated ones; the reference's is its generated run with the result
  dropped; the idealization ledger is empty.
-/
import proofs.«142028_j23605140259119_1_alg».proof.Defs
import proofs.«142028_j23605140259119_1_alg».proof.Proof.Gen.Kernel
import proofs.«142028_j23605140259119_1_alg».proof.Proof.Gen.Kernel.Frame
import proofs.«142028_j23605140259119_1_alg».proof.Proof.Gen.KernelIdeal
import proofs.«142028_j23605140259119_1_alg».proof.Proof.Gen.KernelIdeal.Frame
import proofs.«142028_j23605140259119_1_alg».proof.Proof.Gen.ReferenceIdeal
import proofs.«142028_j23605140259119_1_alg».proof.Proof.Gen.ReferenceIdeal.Run
import proofs.«142028_j23605140259119_1_alg».proof.Proof.Gen.ReferenceIdeal.Read
import proofs.«142028_j23605140259119_1_alg».proof.Proof.Gen.Pre_finite_inputs
import proofs.«142028_j23605140259119_1_alg».proof.Proof.KernelRun
import proofs.«142028_j23605140259119_1_alg».proof.Proof.KernelFold
import proofs.«142028_j23605140259119_1_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to prove. -/
theorem preserves : Cert.preserves_Kernel_KernelIdeal := trivial

/-- Both runs end with the result buffer at the network of the arguments as launched; the arguments agree. -/
theorem algebraic : Cert.algebraic_KernelIdeal_ReferenceIdeal := by
  intro m ρ m' ρ' _ hagree
  refine ⟨fun c => Cert.ReferenceIdeal.Layers.net (Cert.KernelIdeal.Fold.a0 m c) (Cert.KernelIdeal.Fold.a1 m c)
      (Cert.KernelIdeal.Fold.a2 m c) (Cert.KernelIdeal.Fold.a3 m c) (Cert.KernelIdeal.Fold.a4 m c) (Cert.KernelIdeal.Fold.a5 m c)
      (Cert.KernelIdeal.Fold.a6 m c) (Cert.KernelIdeal.Fold.a7 m c) (Cert.KernelIdeal.Fold.a8 m c) (Cert.KernelIdeal.Fold.a9 m c), ?_, ?_⟩
  · exact (θ_run Cert.KernelIdeal.defs _ _).mono
      (fun r h c => ⟨(h c).1.trans (Cert.KernelIdeal.Fold.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v83_eq, Cert.ReferenceIdeal.Layers.ref_net,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
